-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x36x64 : Shape := ⟨4, ![16, 64, 36, 64]⟩
abbrev S_ : Shape := ⟨0, ![]⟩

class Facts : Prop where
  bcast_S_S16x64x36x64 : S_.BroadcastsInDim S16x64x36x64 (![] : Fin 0 → Fin S16x64x36x64.rank)
  reducesTo_S16x64x36x64_S_d0_1_2_3 : S16x64x36x64.ReducesTo [0, 1, 2, 3] S_
  h_S_ : 0 < S_.numel

variable [Facts]

def fn {F : FTy → Type} [FloatOps F] (main_arg0 : FVec F S16x64x36x64 .f32) (main_arg1 : FVec F S16x64x36x64 .f32) : IVec S_ 1 :=
  let main_v0 : FVec F S16x64x36x64 .f32 := Host.absf main_arg0
  let main_cst : FVec F S_ .f32 := constant S_ .f32 0x7F800000#32
  let main_v1 : FVec F S16x64x36x64 .f32 := broadcastInDim S16x64x36x64 ![] bcast_S_S16x64x36x64 main_cst
  let main_v2 : IVec S16x64x36x64 1 := cmpf .olt main_v0 main_v1
  let main_c : IVec S_ 1 := constantI S_ 1 1#1
  let main_v3 : IVec S_ 1 := (fun x v => Host.reduce IntOp.andi x v reducesTo_S16x64x36x64_S_d0_1_2_3 h_S_) main_v2 main_c
  let main_v4 : FVec F S16x64x36x64 .f32 := Host.absf main_arg1
  let main_cst_0 : FVec F S_ .f32 := constant S_ .f32 0x7F800000#32
  let main_v5 : FVec F S16x64x36x64 .f32 := broadcastInDim S16x64x36x64 ![] bcast_S_S16x64x36x64 main_cst_0
  let main_v6 : IVec S16x64x36x64 1 := cmpf .olt main_v4 main_v5
  let main_c_1 : IVec S_ 1 := constantI S_ 1 1#1
  let main_v7 : IVec S_ 1 := (fun x v => Host.reduce IntOp.andi x v reducesTo_S16x64x36x64_S_d0_1_2_3 h_S_) main_v6 main_c_1
  let main_v8 : IVec S_ 1 := andi main_v3 main_v7
  main_v8
-- ==== Kernel.lean ====
abbrev S16x64x36x64 : Shape := ⟨4, ![16, 64, 36, 64]⟩
abbrev S16x64x2304 : Shape := ⟨3, ![16, 64, 2304]⟩
abbrev S16x2304x2304 : Shape := ⟨3, ![16, 2304, 2304]⟩
abbrev S1x64x2304 : Shape := ⟨3, ![1, 64, 2304]⟩
abbrev S1x64x768 : Shape := ⟨3, ![1, 64, 768]⟩
abbrev S1x2304x768 : Shape := ⟨3, ![1, 2304, 768]⟩
abbrev S64x2304 : Shape := ⟨2, ![64, 2304]⟩
abbrev S2304x1 : Shape := ⟨2, ![2304, 1]⟩
abbrev S2304 : Shape := ⟨1, ![2304]⟩
abbrev S64x768 : Shape := ⟨2, ![64, 768]⟩
abbrev S2304x768 : Shape := ⟨2, ![2304, 768]⟩
abbrev S768 : Shape := ⟨1, ![768]⟩
abbrev S1x768 : Shape := ⟨2, ![1, 768]⟩

abbrev nBuf : Space → Nat
  | .hbm => 5
  | .vmem => 8
  | .smem => 0
  | _ => 0

abbrev bufTy : (tb : Table) → Fin (tcTables nBuf tb) → BufTy
  | .hbm, ⟨0, _⟩ => ⟨S16x64x36x64, .f32⟩
  | .hbm, ⟨1, _⟩ => ⟨S16x64x36x64, .f32⟩
  | .hbm, ⟨2, _⟩ => ⟨S16x64x2304, .f32⟩
  | .hbm, ⟨3, _⟩ => ⟨S16x64x2304, .f32⟩
  | .hbm, ⟨4, _⟩ => ⟨S16x2304x2304, .f32⟩
  | .local _ .vmem, ⟨0, _⟩ => ⟨S1x64x2304, .f32⟩
  | .local _ .vmem, ⟨1, _⟩ => ⟨S1x64x2304, .f32⟩
  | .local _ .vmem, ⟨2, _⟩ => ⟨S1x64x768, .f32⟩
  | .local _ .vmem, ⟨3, _⟩ => ⟨S1x64x768, .f32⟩
  | .local _ .vmem, ⟨4, _⟩ => ⟨S1x2304x768, .f32⟩
  | .local _ .vmem, ⟨5, _⟩ => ⟨S1x2304x768, .f32⟩
  | .local _ .vmem, ⟨6, _⟩ => ⟨S64x2304, .bf16⟩
  | .local _ .vmem, ⟨7, _⟩ => ⟨S2304x1, .f32⟩
  | _, _ => ⟨S16x64x36x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 3], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x64x2304 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x64x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2304x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S16x64x36x64_S16x64x2304 : S16x64x36x64.ShapeCasts S16x64x2304
  inb_S1x64x2304_S1x64x2304_0_0_0 : ∀ a, (![0, 0, 0] : Fin 3 → Nat) a + S1x64x2304.size a ≤ S1x64x2304.size a
  h_S1x64x2304 : 0 < S1x64x2304.numel
  shapeCasts_S1x64x2304_S64x2304 : S1x64x2304.ShapeCasts S64x2304
  bitsLt_bf16_f32 : FTy.bits .bf16 < FTy.bits .f32
  inb_S64x2304_S64x2304_0_0 : ∀ a, (![0, 0] : Fin 2 → Nat) a + S64x2304.size a ≤ S64x2304.size a
  h_S64x2304 : 0 < S64x2304.numel
  shapeCasts_S64x2304_S64x2304 : S64x2304.ShapeCasts S64x2304
  packedbf16_S64x2304_S64x2304_0_0 : (Rect.unit (s := S64x2304) ![0, 0] S64x2304.size inb_S64x2304_S64x2304_0_0).PackedRows (EltTy.packing .bf16)
  reduces_S64x2304_S2304 : S64x2304.Reduces [0] S2304
  shapeCasts_S2304_S2304x1 : S2304.ShapeCasts S2304x1
  inb_S2304x1_S2304x1_0_0 : ∀ a, (![0, 0] : Fin 2 → Nat) a + S2304x1.size a ≤ S2304x1.size a
  h_S2304x1 : 0 < S2304x1.numel
  shapeCasts_S2304x1_S2304x1 : S2304x1.ShapeCasts S2304x1
  inb_S1x64x768_S1x64x768_0_0_0 : ∀ a, (![0, 0, 0] : Fin 3 → Nat) a + S1x64x768.size a ≤ S1x64x768.size a
  h_S1x64x768 : 0 < S1x64x768.numel
  shapeCasts_S1x64x768_S64x768 : S1x64x768.ShapeCasts S64x768
  broadcasts_S2304x1_S2304x768 : S2304x1.Broadcasts S2304x768
  reduces_S2304x768_S768 : S2304x768.Reduces [0] S768
  shapeCasts_S768_S1x768 : S768.ShapeCasts S1x768
  broadcasts_S1x768_S2304x768 : S1x768.Broadcasts S2304x768
  inb_S1x2304x768_S1x2304x768_0_0_0 : ∀ a, (![0, 0, 0] : Fin 3 → Nat) a + S1x2304x768.size a ≤ S1x2304x768.size a
  h_S1x2304x768 : 0 < S1x2304x768.numel
  shapeCasts_S1x2304x768_S2304x768 : S1x2304x768.ShapeCasts S2304x768
  shapeCasts_S2304x768_S1x2304x768 : S2304x768.ShapeCasts S1x2304x768
  dot_S64x2304_S64x768_S2304x768_0_0_1_1_n_n_wf : DotDims.WF S64x2304 S64x768 S2304x768 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x2304.size a ≤ S16x64x2304.size a
  hwx0_0 : ∀ i : grid0.Coords, EltTy.bits .f32 = 32 ∨ (Rect.block (s := S16x64x2304) S1x64x2304.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x768.size a ≤ S16x64x2304.size a
  hwx0_1 : ∀ i : grid0.Coords, EltTy.bits .f32 = 32 ∨ (Rect.block (s := S16x64x2304) S1x64x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2304x768.size a ≤ S16x2304x2304.size a
  hwx0_2 : ∀ i : grid0.Coords, EltTy.bits .f32 = 32 ∨ (Rect.block (s := S16x2304x2304) S1x2304x768.size (cc0_transform_2 i) (hinb0_2 i)).WholeWords (EltTy.packing .f32)

variable [Facts₀]

def dot_S64x2304_S64x768_S2304x768_0_0_1_1_n_n : DotDims S64x2304 S64x768 S2304x768 where
  lhsContracting := [0]
  rhsContracting := [0]
  lhsNonContracting := [1]
  rhsNonContracting := [1]
  lhsBatch := []
  rhsBatch := []
  wf := dot_S64x2304_S64x768_S2304x768_0_0_1_1_n_n_wf

abbrev win0_0 : Pipeline.Window sig grid0 :=
  Pipeline.Window.ofSpec (Memref.whole main_v0) S1x64x2304.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x64x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2304x768.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x64x36x64 : Shape := ⟨4, ![16, 64, 36, 64]⟩
abbrev S16x64x2304 : Shape := ⟨3, ![16, 64, 2304]⟩
abbrev S_ : Shape := ⟨0, ![]⟩
abbrev S16x2304 : Shape := ⟨2, ![16, 2304]⟩
abbrev S16x2304x1 : Shape := ⟨3, ![16, 2304, 1]⟩
abbrev S16x2304x2304 : Shape := ⟨3, ![16, 2304, 2304]⟩
abbrev S16x1x2304 : Shape := ⟨3, ![16, 1, 2304]⟩

abbrev nBuf : Space → Nat
  | .hbm => 38
  | .vmem => 0
  | .smem => 0
  | _ => 0

abbrev bufTy : (tb : Table) → Fin (tcTables nBuf tb) → BufTy
  | .hbm, ⟨0, _⟩ => ⟨S16x64x36x64, .f32⟩
  | .hbm, ⟨1, _⟩ => ⟨S16x64x36x64, .f32⟩
  | .hbm, ⟨2, _⟩ => ⟨S16x64x2304, .f32⟩
  | .hbm, ⟨3, _⟩ => ⟨S16x64x2304, .f32⟩
  | .hbm, ⟨4, _⟩ => ⟨S16x64x2304, .f32⟩
  | .hbm, ⟨5, _⟩ => ⟨S_, .f32⟩
  | .hbm, ⟨6, _⟩ => ⟨S16x2304, .f32⟩
  | .hbm, ⟨7, _⟩ => ⟨S16x2304x1, .f32⟩
  | .hbm, ⟨8, _⟩ => ⟨S16x2304x2304, .f32⟩
  | .hbm, ⟨9, _⟩ => ⟨S_, .f32⟩
  | .hbm, ⟨10, _⟩ => ⟨S16x2304x2304, .f32⟩
  | .hbm, ⟨11, _⟩ => ⟨S16x2304x2304, .f32⟩
  | .hbm, ⟨12, _⟩ => ⟨S16x64x2304, .f32⟩
  | .hbm, ⟨13, _⟩ => ⟨S_, .f32⟩
  | .hbm, ⟨14, _⟩ => ⟨S16x2304, .f32⟩
  | .hbm, ⟨15, _⟩ => ⟨S16x1x2304, .f32⟩
  | .hbm, ⟨16, _⟩ => ⟨S16x2304x1, .f32⟩
  | .hbm, ⟨17, _⟩ => ⟨S16x2304x2304, .f32⟩
  | .hbm, ⟨18, _⟩ => ⟨S16x2304x2304, .f32⟩
  | .hbm, ⟨19, _⟩ => ⟨S16x2304x2304, .f32⟩
  | .hbm, ⟨20, _⟩ => ⟨S16x2304x2304, .f32⟩
  | .hbm, ⟨21, _⟩ => ⟨S_, .f32⟩
  | .hbm, ⟨22, _⟩ => ⟨S16x2304x2304, .f32⟩
  | .hbm, ⟨23, _⟩ => ⟨S16x2304x2304, .f32⟩
  | .hbm, ⟨24, _⟩ => ⟨S_, .f32⟩
  | .hbm, ⟨25, _⟩ => ⟨S16x2304, .f32⟩
  | .hbm, ⟨26, _⟩ => ⟨S_, .f32⟩
  | .hbm, ⟨27, _⟩ => ⟨S16x2304, .f32⟩
  | .hbm, ⟨28, _⟩ => ⟨S16x2304, .f32⟩
  | .hbm, ⟨29, _⟩ => ⟨S16x1x2304, .f32⟩
  | .hbm, ⟨30, _⟩ => ⟨S16x2304x2304, .f32⟩
  | .hbm, ⟨31, _⟩ => ⟨S16x2304x2304, .f32⟩
  | .hbm, ⟨32, _⟩ => ⟨S16x2304x2304, .f32⟩
  | .hbm, ⟨33, _⟩ => ⟨S_, .f32⟩
  | .hbm, ⟨34, _⟩ => ⟨S16x2304, .f32⟩
  | .hbm, ⟨35, _⟩ => ⟨S16x1x2304, .f32⟩
  | .hbm, ⟨36, _⟩ => ⟨S16x2304x2304, .f32⟩
  | .hbm, ⟨37, _⟩ => ⟨S16x2304x2304, .f32⟩
  | _, _ => ⟨S16x64x36x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_5 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]

class Facts₀ : Prop where
  shapeCasts_S16x64x36x64_S16x64x2304 : S16x64x36x64.ShapeCasts S16x64x2304
  reducesTo_S16x64x2304_S16x2304_d1 : S16x64x2304.ReducesTo [1] S16x2304
  h_S_ : 0 < S_.numel
  bcast_S16x2304_S16x2304x1_0_1 : S16x2304.BroadcastsInDim S16x2304x1 (![0, 1] : Fin 2 → Fin S16x2304x1.rank)
  bcast_S_S16x2304x2304 : S_.BroadcastsInDim S16x2304x2304 (![] : Fin 0 → Fin S16x2304x2304.rank)
  bcast_S16x2304_S16x1x2304_0_2 : S16x2304.BroadcastsInDim S16x1x2304 (![0, 2] : Fin 2 → Fin S16x1x2304.rank)
  bcast_S16x2304x1_S16x2304x2304_0_1_2 : S16x2304x1.BroadcastsInDim S16x2304x2304 (![0, 1, 2] : Fin 3 → Fin S16x2304x2304.rank)
  bcast_S16x1x2304_S16x2304x2304_0_1_2 : S16x1x2304.BroadcastsInDim S16x2304x2304 (![0, 1, 2] : Fin 3 → Fin S16x2304x2304.rank)
  reducesTo_S16x2304x2304_S16x2304_d1 : S16x2304x2304.ReducesTo [1] S16x2304
  bcast_S_S16x2304 : S_.BroadcastsInDim S16x2304 (![] : Fin 0 → Fin S16x2304.rank)
  dot_S16x64x2304_S16x64x2304_S16x2304x2304_1_1_2_2_0_0_wf : DotDims.WF S16x64x2304 S16x64x2304 S16x2304x2304 [1] [1] [2] [2] [0] [0]

variable [Facts₀]

def dot_S16x64x2304_S16x64x2304_S16x2304x2304_1_1_2_2_0_0 : DotDims S16x64x2304 S16x64x2304 S16x2304x2304 where
  lhsContracting := [1]
  rhsContracting := [1]
  lhsNonContracting := [2]
  rhsNonContracting := [2]
  lhsBatch := [0]
  rhsBatch := [0]
  wf := dot_S16x64x2304_S16x64x2304_S16x2304x2304_1_1_2_2_0_0_wf

class Facts : Prop extends Facts₀ where

variable [Facts]
-- ==== Proof.SoftmaxLaw.lean ====
/-
  The mathematics both programs compute, stated over the extended reals with no program in sight.

  For memory keys X and query keys Y (64 channels each) the two programs form, per batch, the matrix of scaled
  negative squared distances between every memory position m and every query position q, and normalise each COLUMN
  q by a softmax over m. With A_m = sum_c X_cm^2, D_mq = sum_c X_cm Y_cq and C_q = sum_c Y_cq^2,

    the reference's entry is  ((-A_m + 2 D_mq) - C_q) / 8,
    the kernel's entry is     sum_c X_cm (Y_cq / 4) - A_m / 8,

  so the two differ by C_q / 8, which does not depend on m. A softmax over m subtracts the column's maximum before
  exponentiating, and subtracting a constant from a whole column moves its maximum by the same constant: the
  exponents, hence the softmax, are unchanged. That step cancels a real number, so it needs every entry to be a
  real; at an infinity the cancellation fails. This module proves the cancellation for real entries.
-/
import Idealize.ShloMosaic.PureOps.Ideal
import Idealize.ShloMosaic.PureOps.Ideal.Laws
import Idealize.ShloMosaic.Lib.ValueIdx

noncomputable section

namespace Cert.SoftmaxLaw

open Idealize.ShloMosaic

/-- The coercion of reals into the extended reals commutes with a finite sum. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## A column's maximum and softmax -/

/-- The maximum of a column, taken from minus infinity. -/
def colMax {n : ℕ} (f : Fin n → EReal) : EReal := (Finset.univ : Finset (Fin n)).fold max ⊥ f

/-- The softmax of a column at position `m`: the exponential of the entry less the column's maximum, over the sum of
    those exponentials down the column. -/
def softmax {n : ℕ} (f : Fin n → EReal) (m : Fin n) : EReal :=
  Ideal.div (Ideal.exp (f m - colMax f)) (∑ k : Fin n, Ideal.exp (f k - colMax f))

/-- The maximum of a nonempty column of reals is a real. -/
theorem colMax_real {n : ℕ} (hn : 0 < n) (r : Fin n → ℝ) :
    ∃ M : ℝ, colMax (fun m => (r m : EReal)) = (M : EReal) := by
  have hb : colMax (fun m => (r m : EReal)) ≠ ⊥ := by
    intro h
    have h0 : ((r ⟨0, hn⟩ : ℝ) : EReal) ≤ colMax (fun m => (r m : EReal)) :=
      (Finset.le_fold_max _).mpr (Or.inr ⟨⟨0, hn⟩, Finset.mem_univ _, le_rfl⟩)
    rw [h] at h0
    exact EReal.coe_ne_bot _ (le_bot_iff.mp h0)
  have ht : colMax (fun m => (r m : EReal)) ≠ ⊤ :=
    ((Finset.fold_max_lt _).mpr ⟨bot_lt_top, fun x _ => EReal.coe_lt_top _⟩).ne
  exact ⟨_, (EReal.coe_toReal ht hb).symm⟩

/-- Subtracting a real from every entry of a column subtracts it from the column's maximum: subtraction of a real is
    monotone and fixes minus infinity. -/
theorem colMax_shift {n : ℕ} (r : Fin n → ℝ) (σ : ℝ) :
    colMax (fun m => ((r m - σ : ℝ) : EReal)) = colMax (fun m => (r m : EReal)) - (σ : EReal) := by
  unfold colMax
  have hm : Monotone (fun x : EReal => x - (σ : EReal)) := fun x y h => EReal.sub_le_sub h le_rfl
  have hg : ∀ a b : EReal, max a b - (σ : EReal) = max (a - (σ : EReal)) (b - (σ : EReal)) :=
    fun a b => hm.map_max
  have h := Finset.fold_hom (op := max) (op' := max) (m := fun x : EReal => x - (σ : EReal)) (b := (⊥ : EReal))
    (s := (Finset.univ : Finset (Fin n))) (f := fun m => (r m : EReal)) hg
  rw [← h, EReal.bot_sub]
  exact Finset.fold_congr fun m _ => EReal.coe_sub _ _

/-- So an entry less its column's maximum is unchanged by the shift. -/
theorem sub_colMax_shift {n : ℕ} (hn : 0 < n) (r : Fin n → ℝ) (σ : ℝ) (k : Fin n) :
    ((r k - σ : ℝ) : EReal) - colMax (fun m => ((r m - σ : ℝ) : EReal))
      = (r k : EReal) - colMax (fun m => (r m : EReal)) := by
  obtain ⟨M, hM⟩ := colMax_real hn r
  rw [colMax_shift, hM, ← EReal.coe_sub, ← EReal.coe_sub, ← EReal.coe_sub]
  congr 1; ring

/-! ## The affinity, in the kernel's form and in the reference's -/

/-- The kernel's entry: the scale 1/8 folded into the factors. -/
def aff (X Y : Fin 64 → EReal) : EReal :=
  (∑ c : Fin 64, X c * (Y c * ((1 / 4 : ℝ) : EReal))) - (∑ c : Fin 64, X c * X c) * ((1 / 8 : ℝ) : EReal)

/-- The reference's entry: the three terms summed from zero, then divided by 8. -/
def affRef (X Y : Fin 64 → EReal) : EReal :=
  Ideal.div ((-(0 + ∑ c : Fin 64, X c * X c) + ((2 : ℝ) : EReal) * ∑ c : Fin 64, X c * Y c)
    - (0 + ∑ c : Fin 64, Y c * Y c)) ((8 : ℝ) : EReal)

/-- The kernel's entry over the reals. -/
def affR (x y : Fin 64 → ℝ) : ℝ :=
  (∑ c : Fin 64, x c * (y c * (1 / 4))) - (∑ c : Fin 64, x c * x c) * (1 / 8)

theorem aff_coe (x y : Fin 64 → ℝ) : aff (fun c => (x c : EReal)) (fun c => (y c : EReal)) = (affR x y : EReal) := by
  unfold aff affR
  simp only [← EReal.coe_mul, ← coe_sum, ← EReal.coe_sub]

/-- On reals the reference's entry is the kernel's less the query's squared norm over 8. -/
theorem affRef_coe (x y : Fin 64 → ℝ) :
    affRef (fun c => (x c : EReal)) (fun c => (y c : EReal))
      = ((affR x y - (∑ c : Fin 64, y c * y c) * (1 / 8) : ℝ) : EReal) := by
  unfold affRef affR
  rw [Ideal.div_coe (by norm_num : (8 : ℝ) ≠ 0)]
  simp only [zero_add, ← EReal.coe_mul, ← coe_sum, ← EReal.coe_neg, ← EReal.coe_add, ← EReal.coe_sub]
  congr 1
  have h : ∑ c : Fin 64, x c * (y c * (1 / 4)) = (∑ c : Fin 64, x c * y c) * (1 / 4) := by
    rw [Finset.sum_mul]; exact Finset.sum_congr rfl fun c _ => by ring
  rw [h]; ring

/-! ## The result, index by index -/

/-- The kernel's function of the two key arrays (batch, channel, position): the column softmax of its affinity. -/
def G (X Y : Fin 16 → Fin 64 → Fin 2304 → EReal) (b : Fin 16) (m q : Fin 2304) : EReal :=
  softmax (fun m' => aff (fun c => X b c m') (fun c => Y b c q)) m

/-- The reference's function: its affinity, the column maximum joined once more with minus infinity, the column sum
    taken from zero. -/
def Gref (X Y : Fin 16 → Fin 64 → Fin 2304 → EReal) (b : Fin 16) (m q : Fin 2304) : EReal :=
  Ideal.div
    (Ideal.exp (affRef (fun c => X b c m) (fun c => Y b c q)
      - max ⊥ (colMax fun m' => affRef (fun c => X b c m') (fun c => Y b c q))))
    (0 + ∑ k : Fin 2304, Ideal.exp (affRef (fun c => X b c k) (fun c => Y b c q)
      - max ⊥ (colMax fun m' => affRef (fun c => X b c m') (fun c => Y b c q))))

/-- On real inputs the two are one function. -/
theorem Gref_eq_G (X Y : Fin 16 → Fin 64 → Fin 2304 → EReal)
    (hX : ∀ b c m, ∃ r : ℝ, X b c m = (r : EReal)) (hY : ∀ b c m, ∃ r : ℝ, Y b c m = (r : EReal)) :
    Gref X Y = G X Y := by
  choose x hx using hX
  choose y hy using hY
  obtain rfl : X = fun b c m => (x b c m : EReal) := funext fun b => funext fun c => funext fun m => hx b c m
  obtain rfl : Y = fun b c m => (y b c m : EReal) := funext fun b => funext fun c => funext fun m => hy b c m
  funext b m q
  unfold Gref G softmax
  simp only [aff_coe, affRef_coe, max_bot_left, zero_add]
  simp only [sub_colMax_shift (by norm_num : 0 < 2304) (fun m' => affR (fun c => x b c m') (fun c => y b c q))
    ((∑ c : Fin 64, y b c q * y b c q) * (1 / 8))]

/-! ## The same over arrays -/

open Idealize.ShloMosaic.ValueIdx

/-- The shape of the key arrays once their two spatial axes are merged, and of the result. -/
abbrev Keys : Shape := ⟨3, ![16, 64, 2304]⟩
abbrev Out : Shape := ⟨3, ![16, 2304, 2304]⟩

/-- A (batch, channel, position) array by coordinates. -/
def cur (X : Keys.Idx → EReal) : Fin 16 → Fin 64 → Fin 2304 → EReal := fun b c p => X (ix3 b c p)

/-- The kernel's result array: at (batch, memory position, query position) the column softmax of its affinity. -/
def Garr (X Y : Keys.Idx → EReal) : Out.Idx → EReal := fun i => G (cur X) (cur Y) (i 0) (i 1) (i 2)

/-- The reference's result array. -/
def GrefArr (X Y : Keys.Idx → EReal) : Out.Idx → EReal := fun i => Gref (cur X) (cur Y) (i 0) (i 1) (i 2)

/-- On key arrays whose every entry is a real the two result arrays are equal. -/
theorem GrefArr_eq_Garr (X Y : Keys.Idx → EReal) (hX : ∀ i, ∃ r : ℝ, X i = (r : EReal)) (hY : ∀ i, ∃ r : ℝ, Y i = (r : EReal)) :
    GrefArr X Y = Garr X Y := by
  unfold GrefArr Garr
  rw [Gref_eq_G (cur X) (cur Y) (fun b c p => hX _) (fun b c p => hY _)]

end Cert.SoftmaxLaw

end
-- ==== Proof.Pieces.lean ====
/-
  What one run of the kernel body leaves behind, as values of what it loaded.

  At a grid point that opens a batch (query tile 0) the body loads the batch's whole memory-key slab, stores its
  narrowed copy and the column of scaled squared norms into the two carried buffers, reads both back, and stores the
  output tile computed from the query tile and those two. At the other points it stores nothing into the carried
  buffers and computes the output tile from the query tile and what they already hold. Each buffer is written by ONE
  store that covers it, so what it ends holding is that store's payload.
-/
import proofs.«132363_j35433480192809_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- A point inside a batch: the output tile is the body's arithmetic on the query tile and the two carried buffers
    as the point before left them. -/
theorem out_B (c : Dev nD) (i : grid0.Coords) (a2 : Memref sig .tc .vmem S1x64x2304 .f32) (h2 : a2.IsWhole) (a3 : Memref sig .tc .vmem S1x64x768 .f32) (h3 : a3.IsWhole) (a4 : Memref sig .tc .vmem S1x2304x768 .f32) (h4 : a4.IsWhole) (a5 : Memref sig .tc .vmem S64x2304 .bf16) (h5 : a5.IsWhole) (a6 : Memref sig .tc .vmem S2304x1 .f32) (h6 : a6.IsWhole) (hc : ¬cond0_0 i) (x0 : Vec F S1x64x2304 .f32) (x1 : Vec F S1x64x768 .f32)
    (xs0 : Vec F S64x2304 .bf16) (xs1 : Vec F S2304x1 .f32) :
    out0_B_2 c i a2 h2 a3 h3 a4 h4 a5 h5 a6 h6 hc x0 x1 xs0 xs1 = k0_pay4 x1 xs0 xs1 := by
  unfold out0_B_2
  rw [View.read_writes_eq_canon _ _ _ (cover0_B_2 c i a2 h2 a3 h3 a4 h4 a5 h5 a6 h6 hc x0 x1 xs0 xs1)]
  unfold kernelRun0_B
  dsimp only
  rw [View.canon_unit_zero hz3]
  simp only [View.readAt_eq_ld, h3.read_unread, h5.read_unread, h6.read_unread, View.ld_unit_zero (S := S1x64x768) hz3,
    View.ld_unit_zero (S := S64x2304) hz2, View.ld_unit_zero (S := S2304x1) hz2]

/-- A point that opens a batch leaves the narrowed memory-key slab in the first carried buffer, -/
theorem sout_A_0 (c : Dev nD) (i : grid0.Coords) (a2 : Memref sig .tc .vmem S1x64x2304 .f32) (h2 : a2.IsWhole) (a3 : Memref sig .tc .vmem S1x64x768 .f32) (h3 : a3.IsWhole) (a4 : Memref sig .tc .vmem S1x2304x768 .f32) (h4 : a4.IsWhole) (a5 : Memref sig .tc .vmem S64x2304 .bf16) (h5 : a5.IsWhole) (a6 : Memref sig .tc .vmem S2304x1 .f32) (h6 : a6.IsWhole) (hc : cond0_0 i) (x0 : Vec F S1x64x2304 .f32) (x1 : Vec F S1x64x768 .f32) :
    sout0_A_0 c i a2 h2 a3 h3 a4 h4 a5 h5 a6 h6 hc x0 x1 = k0_pay2 x0 := by
  unfold sout0_A_0
  rw [View.read_writes_eq_canon _ _ _ (scover0_A_0 c i a2 h2 a3 h3 a4 h4 a5 h5 a6 h6 hc x0 x1)]
  unfold kernelRun0_A
  dsimp only
  sl_unfold_words
  rw [View.canon_unit_zero hz2]
  simp only [View.readAt_eq_ld, h2.read_unread, View.ld_unit_zero (S := S1x64x2304) hz3]

/-- the column of scaled squared norms in the second, -/
theorem sout_A_1 (c : Dev nD) (i : grid0.Coords) (a2 : Memref sig .tc .vmem S1x64x2304 .f32) (h2 : a2.IsWhole) (a3 : Memref sig .tc .vmem S1x64x768 .f32) (h3 : a3.IsWhole) (a4 : Memref sig .tc .vmem S1x2304x768 .f32) (h4 : a4.IsWhole) (a5 : Memref sig .tc .vmem S64x2304 .bf16) (h5 : a5.IsWhole) (a6 : Memref sig .tc .vmem S2304x1 .f32) (h6 : a6.IsWhole) (hc : cond0_0 i) (x0 : Vec F S1x64x2304 .f32) (x1 : Vec F S1x64x768 .f32) :
    sout0_A_1 c i a2 h2 a3 h3 a4 h4 a5 h5 a6 h6 hc x0 x1 = k0_pay3 x0 := by
  unfold sout0_A_1
  rw [View.read_writes_eq_canon _ _ _ (scover0_A_1 c i a2 h2 a3 h3 a4 h4 a5 h5 a6 h6 hc x0 x1)]
  unfold kernelRun0_A
  dsimp only
  sl_unfold_words
  rw [View.canon_unit_zero hz2]
  simp only [View.readAt_eq_ld, h2.read_unread, View.ld_unit_zero (S := S1x64x2304) hz3]

/-- and the output tile computed from the query tile and those two, read back. -/
theorem out_A (c : Dev nD) (i : grid0.Coords) (a2 : Memref sig .tc .vmem S1x64x2304 .f32) (h2 : a2.IsWhole) (a3 : Memref sig .tc .vmem S1x64x768 .f32) (h3 : a3.IsWhole) (a4 : Memref sig .tc .vmem S1x2304x768 .f32) (h4 : a4.IsWhole) (a5 : Memref sig .tc .vmem S64x2304 .bf16) (h5 : a5.IsWhole) (a6 : Memref sig .tc .vmem S2304x1 .f32) (h6 : a6.IsWhole) (hc : cond0_0 i) (x0 : Vec F S1x64x2304 .f32) (x1 : Vec F S1x64x768 .f32) :
    out0_A_2 c i a2 h2 a3 h3 a4 h4 a5 h5 a6 h6 hc x0 x1 = k0_pay4 x1 (k0_pay2 x0) (k0_pay3 x0) := by
  unfold out0_A_2
  rw [View.read_writes_eq_canon _ _ _ (cover0_A_2 c i a2 h2 a3 h3 a4 h4 a5 h5 a6 h6 hc x0 x1)]
  unfold kernelRun0_A
  dsimp only
  sl_unfold_words
  rw [View.canon_unit_zero hz3, View.readCov_unit_zero (S := S64x2304) _ hz2, View.readCov_unit_zero (S := S2304x1) _ hz2]
  simp only [View.readAt_eq_ld, h2.read_unread, h3.read_unread, View.ld_unit_zero (S := S1x64x768) hz3,
    View.ld_unit_zero (S := S1x64x2304) hz3]

end Cert.KernelIdeal.Pieces

end
-- ==== Proof.Consts.lean ====
/-
  The float constants the two programs spell, as the extended reals their patterns denote: the kernel's 1/8 and 1/4
  (it folds the division by sqrt 64 = 8 into its factors), the reference's 2 and 8, and minus infinity, from which
  both take their column maximum.
-/
import Idealize.ShloMosaic.PureOps.Ideal
import Idealize.ShloMosaic.PureOps.Ideal.Laws

noncomputable section

namespace Cert.Consts

open Idealize.ShloMosaic

/-- `0.125` denotes the real 1/8. -/
theorem ofBits_eighth : Ideal.ofBits .f32 0x3E000000#32 = ((1 / 8 : ℝ) : EReal) := by
  simp [Ideal.ofBits, Ideal.ieee, -EReal.coe_mul]; norm_num

/-- `0.25` denotes the real 1/4. -/
theorem ofBits_quarter : Ideal.ofBits .f32 0x3E800000#32 = ((1 / 4 : ℝ) : EReal) := by
  simp [Ideal.ofBits, Ideal.ieee, -EReal.coe_mul]; norm_num

/-- `2.0` denotes the real 2. -/
theorem ofBits_two : Ideal.ofBits .f32 0x40000000#32 = ((2 : ℝ) : EReal) := by
  simp [Ideal.ofBits, Ideal.ieee, -EReal.coe_mul]; norm_num

/-- `8.0` denotes the real 8. -/
theorem ofBits_eight : Ideal.ofBits .f32 0x41000000#32 = ((8 : ℝ) : EReal) := by
  simp [Ideal.ofBits, Ideal.ieee, -EReal.coe_mul]; norm_num

/-- The pattern of minus infinity denotes the bottom of the extended reals. -/
theorem ofBits_neg_inf : Ideal.ofBits .f32 0xFF800000#32 = (⊥ : EReal) := by
  simp [Ideal.ofBits, Ideal.ieee]

end Cert.Consts

end
-- ==== Proof.LibColumnReads.lean ====
/-
  Layout operations and reductions along the FIRST axis of a matrix, read at an index given by coordinates, over
  arbitrary extents and (for the reductions) at the ideal values:
  • a vector [a] cast to a column [a, 1], and a column [a, 1] broadcast to [a, b];
  • a `vector.multi_reduction` over axis 0 of an [a, b] matrix, at column `t`: for `add` the sum over the rows, for
    `maximumf` the fold of `max` over the rows from the accumulator's value;
  • the host's one-operand reduce with a maximum body over the MIDDLE axis of an [a, n, b] array, at (p, q): the fold of
    `max` over that axis from the initial value.
  The row forms ([a] to [1, a], [1, b] to [a, b]) are the library's (Lib/ValueLayout.lean); these are the column forms.
-/
import Idealize.ShloMosaic.Lib.ValueIdx
import Idealize.ShloMosaic.Lib.ValueLayout
import Idealize.ShloMosaic.Lib.Pipeline.Value
import Idealize.ShloMosaic.PureOps.Ideal.Laws

namespace Cert.LibColumnReads

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Column `t` of an `[a, b]` matrix with row `k` put back is `(k, t)`. -/
theorem lift_ix1 {a b : ℕ} (h : (⟨2, ![a, b]⟩ : Shape).Reduces [0] (⟨1, ![b]⟩ : Shape)) (t : Fin b) (k : Fin a) :
    h.lift (ix1 t) k = ix2 k t := by
  funext c; apply Fin.ext
  fin_cases c <;> rfl

/-- A float sum over the rows of an `[a, b]` matrix, at column `t`, is the sum of that column. -/
theorem colSum_apply {φ : FTy} {a b : ℕ} (v : FVec Ideal ⟨2, ![a, b]⟩ φ) (acc : BitVec φ.bits)
    (h : (⟨2, ![a, b]⟩ : Shape).Reduces [0] (⟨1, ![b]⟩ : Shape)) (hφ : FKind.Formats φ) (hacc : acc = FKind.add.neutral φ hφ)
    (t : Fin b) :
    multiReduction (F := Ideal) .add [0] ⟨1, ![b]⟩ v acc h hφ hacc (ix1 t) = ∑ k : Fin a, v (ix2 k t) := by
  rw [Ideal.multiReduction_add_single]
  exact Finset.sum_congr rfl fun k _ => congrArg v (lift_ix1 h t k)

/-- A float maximum over the rows of an `[a, b]` matrix, at column `t`, is the fold of `max` down that column from the
    accumulator's value. -/
theorem colMax_apply {φ : FTy} {a b : ℕ} (v : FVec Ideal ⟨2, ![a, b]⟩ φ) (acc : BitVec φ.bits)
    (h : (⟨2, ![a, b]⟩ : Shape).Reduces [0] (⟨1, ![b]⟩ : Shape)) (hφ : FKind.Formats φ) (hacc : acc = FKind.maximumf.neutral φ hφ)
    (t : Fin b) :
    multiReduction (F := Ideal) .maximumf [0] ⟨1, ![b]⟩ v acc h hφ hacc (ix1 t)
      = (Finset.univ : Finset (Fin a)).fold max (Ideal.ofBits φ acc) (fun k => v (ix2 k t)) := by
  rw [Ideal.multiReduction_maximumf_single]
  exact congrArg (fun f => Finset.fold max (Ideal.ofBits φ acc) f (Finset.univ : Finset (Fin a)))
    (funext fun k => congrArg v (lift_ix1 h t k))

/-- Position `(p, q)` of an `[a, n, b]` array with middle coordinate `k` put back is `(p, k, q)`. -/
theorem lift_mid {a n b : ℕ} (h : (⟨3, ![a, n, b]⟩ : Shape).Reduces [1] (⟨2, ![a, b]⟩ : Shape)) (p : Fin a) (q : Fin b)
    (k : Fin n) : h.lift (ix2 p q) k = ix3 p k q := by
  funext c; apply Fin.ext
  fin_cases c <;> rfl

/-- The host's reduce with a maximum body over the middle axis of an `[a, n, b]` array, at `(p, q)`, is the fold of
    `max` over that axis from the initial value. -/
theorem hostMidMax_apply {φ : FTy} {a n b : ℕ} {u : Shape} (x : FVec Ideal ⟨3, ![a, n, b]⟩ φ) (init : FVec Ideal u φ)
    (h' : (⟨3, ![a, n, b]⟩ : Shape).ReducesTo [1] (⟨2, ![a, b]⟩ : Shape))
    (h : (⟨3, ![a, n, b]⟩ : Shape).Reduces [1] (⟨2, ![a, b]⟩ : Shape)) (hu : 0 < u.numel) (p : Fin a) (q : Fin b) :
    Host.reduce (FloatOps.maximumf (F := Ideal) (φ := φ)) x init h' hu (ix2 p q)
      = (Finset.univ : Finset (Fin n)).fold max (init (Shape.Idx.first hu)) (fun k => x (ix3 p k q)) := by
  rw [Host.reduce_eq_fold_single (FloatOps.maximumf (F := Ideal) (φ := φ)) x init h' h hu]
  exact congrArg (fun f => Finset.fold max (init (Shape.Idx.first hu)) f (Finset.univ : Finset (Fin n)))
    (funext fun k => congrArg x (lift_mid h p q k))

end Cert.LibColumnReads
-- ==== Proof.KernelTile.lean ====
/-
  One output tile of the kernel, read at an index, at the ideal values.

  The body forms, from a query tile Q (64 channels by 768 positions), the narrowed memory keys K (64 by 2304) and the
  column a of scaled squared norms (2304 by 1), the matrix  sum_c K_cm (Q_cq / 4) - a_m  over memory positions m
  and query positions q, and normalises each column q by a softmax over m. Where K and a are the ones a batch's first
  point left (K the slab itself, a_m = (sum_c K_cm^2) / 8) the entry is the affinity of SoftmaxLaw in the kernel's form.
-/
import proofs.«132363_j35433480192809_2_alg».proof.Proof.Gen.KernelIdeal.Skeleton
import proofs.«132363_j35433480192809_2_alg».proof.Proof.SoftmaxLaw
import proofs.«132363_j35433480192809_2_alg».proof.Proof.Consts
import proofs.«132363_j35433480192809_2_alg».proof.Proof.LibColumnReads
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.KernelIdeal.Tile

open Cert.KernelIdeal Cert.KernelIdeal.Gen Cert.SoftmaxLaw Cert.LibColumnReads

/-! ## The softmax of a tile's columns -/

/-- The body's last ten operations, as a function of the affinity tile: the column maxima, the exponentials of the
    differences, their column sums, the quotient, the leading unit axis. -/
def softTile (v12 : FVec Ideal S2304x768 .f32) : FVec Ideal S1x2304x768 .f32 :=
  have v13 : FVec Ideal S768 .f32 := multiReduction (F := Ideal) .maximumf [0] S768 v12 0xFF800000#32 reduces_S2304x768_S768 (.inl rfl) rfl
  have v14 : FVec Ideal S1x768 .f32 := shapeCast S1x768 v13 shapeCasts_S768_S1x768
  have v15 : FVec Ideal S2304x768 .f32 := broadcastTo S2304x768 v14 broadcasts_S1x768_S2304x768
  have v16 : FVec Ideal S2304x768 .f32 := subf v12 v15
  have v17 : FVec Ideal S2304x768 .f32 := exp v16
  have v18 : FVec Ideal S768 .f32 := multiReduction (F := Ideal) .add [0] S768 v17 0x00000000#32 reduces_S2304x768_S768 (.inl rfl) rfl
  have v19 : FVec Ideal S1x768 .f32 := shapeCast S1x768 v18 shapeCasts_S768_S1x768
  have v20 : FVec Ideal S2304x768 .f32 := broadcastTo S2304x768 v19 broadcasts_S1x768_S2304x768
  have v21 : FVec Ideal S2304x768 .f32 := divf v17 v20
  shapeCast S1x2304x768 v21 shapeCasts_S2304x768_S1x2304x768

/-- One value per column, laid out as a row and repeated down the rows, reads that column's value. -/
theorem rowBroadcast_apply (w : FVec Ideal S768 .f32) (k : Fin 2304) (q : Fin 768) :
    broadcastTo S2304x768 (shapeCast S1x768 w shapeCasts_S768_S1x768) broadcasts_S1x768_S2304x768 (ix2 k q) = w (ix1 q) := by
  rw [broadcastTo_1b_ab_apply, shapeCast_a_1a_apply]

/-- The tile's softmax at (m, q) is the softmax of column q at m. -/
theorem softTile_apply (v12 : FVec Ideal S2304x768 .f32) (u : Fin 1) (m : Fin 2304) (q : Fin 768) :
    softTile v12 (ix3 u m q) = softmax (fun m' => v12 (ix2 m' q)) m := by
  unfold softTile
  dsimp only
  refine (shapeCast_ab_1ab_apply _ _ u m q).trans ?_
  have hmx : ∀ k : Fin 2304, broadcastTo S2304x768 (shapeCast S1x768 (multiReduction (F := Ideal) .maximumf [0] S768 v12
      0xFF800000#32 reduces_S2304x768_S768 (.inl rfl) rfl) shapeCasts_S768_S1x768) broadcasts_S1x768_S2304x768 (ix2 k q)
      = colMax (fun m' => v12 (ix2 m' q)) := fun k =>
    (rowBroadcast_apply _ k q).trans
      ((colMax_apply v12 0xFF800000#32 reduces_S2304x768_S768 (.inl rfl) rfl q).trans (by
        rw [Consts.ofBits_neg_inf]; rfl))
  unfold softmax
  refine congrArg₂ Ideal.div ?_ ?_
  · exact congrArg (fun z => Ideal.exp (v12 (ix2 m q) - z)) (hmx m)
  · refine (rowBroadcast_apply _ m q).trans
      ((colSum_apply _ 0x00000000#32 reduces_S2304x768_S768 (.inl rfl) rfl q).trans ?_)
    exact Finset.sum_congr rfl fun k _ => congrArg (fun z => Ideal.exp (v12 (ix2 k q) - z)) (hmx k)

/-! ## The affinity tile -/

/-- The body's first operations on the query tile and the two carried buffers: the scaled query tile narrowed,
    contracted with the memory keys over the channels, less the column of scaled squared norms repeated across. -/
def affTile (x1 : Vec Ideal S1x64x768 .f32) (s0 : FVec Ideal S64x2304 .bf16) (s1 : FVec Ideal S2304x1 .f32) :
    FVec Ideal S2304x768 .f32 :=
  have v4 : FVec Ideal S64x768 .f32 := shapeCast S64x768 x1 shapeCasts_S1x64x768_S64x768
  have cst : Ideal .f32 := Scalar.ofBits .f32 0x3E800000#32
  have v5 : FVec Ideal S64x768 .f32 := broadcast S64x768 cst
  have v6 : FVec Ideal S64x768 .f32 := mulf v4 v5
  have v7 : FVec Ideal S64x768 .bf16 := truncf .bf16 v6 bitsLt_bf16_f32
  have cst_5 : FVec Ideal S2304x768 .f32 := constant (F := Ideal) S2304x768 .f32 0x00000000#32
  have v9 : FVec Ideal S2304x768 .f32 := matmul dot_S64x2304_S64x768_S2304x768_0_0_1_1_n_n none s0 v7 cst_5
  have v11 : FVec Ideal S2304x768 .f32 := broadcastTo S2304x768 s1 broadcasts_S2304x1_S2304x768
  subf v9 v11

/-- The body's store into the output tile is the column softmax of the affinity tile. -/
theorem pay4_eq (x1 : Vec Ideal S1x64x768 .f32) (s0 : Vec Ideal S64x2304 .bf16) (s1 : Vec Ideal S2304x1 .f32) :
    k0_pay4 (F := Ideal) x1 s0 s1 = softTile (affTile x1 s0 s1) := rfl

/-- The product's left operand is read at (contraction coordinate, output row), -/
theorem lhs_c (i : S2304x768.Idx) (k : dot_S64x2304_S64x768_S2304x768_0_0_1_1_n_n.contr.Idx) :
    (dot_S64x2304_S64x768_S2304x768_0_0_1_1_n_n.lhsIdx i k 0).val = (k ⟨0, by decide⟩).val :=
  dot_S64x2304_S64x768_S2304x768_0_0_1_1_n_n.lhsIdx_val_of_single rfl i k
theorem lhs_nc (i : S2304x768.Idx) (k : dot_S64x2304_S64x768_S2304x768_0_0_1_1_n_n.contr.Idx) :
    (dot_S64x2304_S64x768_S2304x768_0_0_1_1_n_n.lhsIdx i k 1).val = (i 0).val := by
  unfold DotDims.lhsIdx
  rw [dif_neg (show ¬(1 : Fin S64x2304.rank) ∈ dot_S64x2304_S64x768_S2304x768_0_0_1_1_n_n.lhsBatch by decide),
    dif_pos (show (1 : Fin S64x2304.rank) ∈ dot_S64x2304_S64x768_S2304x768_0_0_1_1_n_n.lhsNonContracting by decide)]
  rfl
/-- its right operand at (contraction coordinate, output column). -/
theorem rhs_c (i : S2304x768.Idx) (k : dot_S64x2304_S64x768_S2304x768_0_0_1_1_n_n.contr.Idx) :
    (dot_S64x2304_S64x768_S2304x768_0_0_1_1_n_n.rhsIdx i k 0).val = (k ⟨0, by decide⟩).val :=
  dot_S64x2304_S64x768_S2304x768_0_0_1_1_n_n.rhsIdx_val_of_single rfl i k
theorem rhs_nc (i : S2304x768.Idx) (k : dot_S64x2304_S64x768_S2304x768_0_0_1_1_n_n.contr.Idx) :
    (dot_S64x2304_S64x768_S2304x768_0_0_1_1_n_n.rhsIdx i k 1).val = (i 1).val := by
  unfold DotDims.rhsIdx
  rw [dif_neg (show ¬(1 : Fin S64x768.rank) ∈ dot_S64x2304_S64x768_S2304x768_0_0_1_1_n_n.rhsBatch by decide),
    dif_pos (show (1 : Fin S64x768.rank) ∈ dot_S64x2304_S64x768_S2304x768_0_0_1_1_n_n.rhsNonContracting by decide)]
  rfl

/-- The matrix unit's product of a 64 by 2304 and a 64 by 768 operand over their FIRST axes, into zeros, at (m, q): the
    sum over the 64 channels. -/
theorem matmulT_apply (l : FVec Ideal S64x2304 .bf16) (r : FVec Ideal S64x768 .bf16) (m : Fin 2304) (q : Fin 768) :
    matmul dot_S64x2304_S64x768_S2304x768_0_0_1_1_n_n none l r (constant (F := Ideal) S2304x768 .f32 0x00000000#32) (ix2 m q)
      = ∑ c : Fin 64, l (ix2 c m) * r (ix2 c q) := by
  refine (Ideal.matmul_constant_zero_apply dot_S64x2304_S64x768_S2304x768_0_0_1_1_n_n none l r (ix2 m q)).trans ?_
  rw [← Equiv.sum_comp (contrEquiv1 dot_S64x2304_S64x768_S2304x768_0_0_1_1_n_n 64 rfl rfl).symm]
  refine Finset.sum_congr rfl fun k _ => ?_
  have hk := contrEquiv1_symm_val dot_S64x2304_S64x768_S2304x768_0_0_1_1_n_n 64 rfl rfl k
  have el : dot_S64x2304_S64x768_S2304x768_0_0_1_1_n_n.lhsIdx (ix2 m q) ((contrEquiv1 dot_S64x2304_S64x768_S2304x768_0_0_1_1_n_n 64 rfl rfl).symm k) = ix2 k m := funext fun a => Fin.ext (by
    match a with
    | ⟨0, _⟩ => exact (lhs_c _ _).trans hk
    | ⟨1, _⟩ => exact lhs_nc _ _)
  have er : dot_S64x2304_S64x768_S2304x768_0_0_1_1_n_n.rhsIdx (ix2 m q) ((contrEquiv1 dot_S64x2304_S64x768_S2304x768_0_0_1_1_n_n 64 rfl rfl).symm k) = ix2 k q := funext fun a => Fin.ext (by
    match a with
    | ⟨0, _⟩ => exact (rhs_c _ _).trans hk
    | ⟨1, _⟩ => exact rhs_nc _ _)
  rw [el, er]

/-- The affinity tile at (m, q). -/
theorem affTile_apply (x1 : Vec Ideal S1x64x768 .f32) (s0 : FVec Ideal S64x2304 .bf16) (s1 : FVec Ideal S2304x1 .f32)
    (m : Fin 2304) (q : Fin 768) :
    affTile x1 s0 s1 (ix2 m q)
      = (∑ c : Fin 64, s0 (ix2 c m) * (x1 (ix3 (0 : Fin 1) c q) * ((1 / 4 : ℝ) : EReal))) - s1 (ix2 m (0 : Fin 1)) := by
  unfold affTile
  refine congrArg₂ (fun a b : EReal => a - b)
    ((matmulT_apply s0 _ m q).trans (Finset.sum_congr rfl fun c _ => ?_)) (broadcastTo_a1_ab_apply s1 _ m q)
  refine congrArg (fun z : EReal => s0 (ix2 c m) * z) ?_
  show shapeCast S64x768 x1 shapeCasts_S1x64x768_S64x768 (ix2 c q) * Ideal.ofBits .f32 0x3E800000#32 = _
  rw [shapeCast_1ab_ab_apply, Consts.ofBits_quarter]

/-! ## What a batch's first point leaves in the carried buffers -/

/-- The narrowed slab is the slab. -/
theorem pay2_apply (x0 : Vec Ideal S1x64x2304 .f32) (c : Fin 64) (m : Fin 2304) :
    k0_pay2 (F := Ideal) x0 (ix2 c m) = x0 (ix3 (0 : Fin 1) c m) := by
  unfold k0_pay2 k0_pay1
  dsimp only
  rw [shapeCast_self]
  exact shapeCast_1ab_ab_apply x0 _ c m

/-- The column holds, at memory position m, the slab's squared norm there over 8. -/
theorem pay3_apply (x0 : Vec Ideal S1x64x2304 .f32) (m : Fin 2304) (u : Fin 1) :
    k0_pay3 (F := Ideal) x0 (ix2 m u)
      = (∑ c : Fin 64, x0 (ix3 (0 : Fin 1) c m) * x0 (ix3 (0 : Fin 1) c m)) * ((1 / 8 : ℝ) : EReal) := by
  unfold k0_pay3 k0_pay1
  dsimp only
  rw [shapeCast_self]
  refine (shapeCast_a_a1_apply _ _ m u).trans ?_
  refine congrArg₂ (fun a b : EReal => a * b)
    ((colSum_apply _ 0x00000000#32 reduces_S64x2304_S2304 (.inl rfl) rfl m).trans (Finset.sum_congr rfl fun c _ => ?_))
    Consts.ofBits_eighth
  show shapeCast S64x2304 x0 shapeCasts_S1x64x2304_S64x2304 (ix2 c m) * shapeCast S64x2304 x0 shapeCasts_S1x64x2304_S64x2304 (ix2 c m) = _
  rw [shapeCast_1ab_ab_apply]

/-! ## The tile -/

/-- The output tile a point computes from a batch's memory-key slab `x0` and a query tile `x1`, at (m, q): the softmax
    over memory positions of the kernel's affinity between the slab's columns and the tile's column q. -/
theorem tile_apply (x0 : Vec Ideal S1x64x2304 .f32) (x1 : Vec Ideal S1x64x768 .f32) (u : Fin 1) (m : Fin 2304) (q : Fin 768) :
    k0_pay4 (F := Ideal) x1 (k0_pay2 x0) (k0_pay3 x0) (ix3 u m q)
      = softmax (fun m' => aff (fun c => x0 (ix3 (0 : Fin 1) c m')) (fun c => x1 (ix3 (0 : Fin 1) c q))) m := by
  rw [pay4_eq, softTile_apply]
  refine congrArg (fun f => softmax f m) (funext fun m' => ?_)
  refine (affTile_apply x1 _ _ m' q).trans ?_
  unfold aff
  simp only [pay2_apply, pay3_apply]

end Cert.KernelIdeal.Tile

end
-- ==== Proof.KernelWhole.lean ====
/-
  From the kernel's tiles to its whole result array.

  The grid has 48 points: point t works on batch t / 3 and query tile t % 3. Its memory-key window is the batch's
  whole slab, its query window the tile's 768 positions of the batch, and its output window the 2304 by 768 tile of
  the batch's result at those query positions. The points t with t % 3 = 0 fill the two carried buffers from the
  slab; the two points after each of them find the buffers as that point left them, and they are in the same batch,
  so at every point the buffers hold the narrowed slab and the scaled squared norms of the point's own batch. Hence
  every point writes back the tile of ONE function of the two key arrays, the tiles cover the result array, and the
  array ends as that function.
-/
import proofs.«132363_j35433480192809_2_alg».proof.Proof.Gen.KernelIdeal.Value
import proofs.«132363_j35433480192809_2_alg».proof.Proof.Pieces
import proofs.«132363_j35433480192809_2_alg».proof.Proof.KernelTile
import proofs.«132363_j35433480192809_2_alg».proof.Proof.SoftmaxLaw
import Idealize.ShloMosaic.Lib.Pipeline.Value
import Idealize.ShloMosaic.Lib.ValueIdx
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen Cert.KernelIdeal.Value Cert.SoftmaxLaw

variable (m : (ℓ : Loc nD τ sig) → Buf (Elt Ideal) ℓ) (ρ : Dev nD → PrngReg)

/-! ## The function of the two key arrays -/

/-- Batch `b`'s slab of the memory keys, -/
def slab (X : S16x64x2304.Idx → EReal) (b : Fin 16) : Vec Ideal S1x64x2304 .f32 :=
  fun y => X (ix3 b (y 1) (y 2))

/-- and tile `j` of batch `b`'s query keys. -/
def qtile (Y : S16x64x2304.Idx → EReal) (b : Fin 16) (j : Fin 3) : Vec Ideal S1x64x768 .f32 :=
  fun y => Y (ix3 b (y 1) ⟨j.val * 768 + (y 2).val, by
    have hj := j.isLt; have hy : (y 2).val < 768 := (y 2).isLt; show j.val * 768 + (y 2).val < 2304; omega⟩)

/-- The tile computed from a batch's slab and one of its query tiles is the result's tile there: at an index of the
    result whose coordinates are the batch, the tile's row, and the tile's column moved to its place. -/
theorem tile_at (X Y : S16x64x2304.Idx → EReal) (b : Fin 16) (j : Fin 3) (y : S1x2304x768.Idx) (i : S16x2304x2304.Idx)
    (h0 : (i 0).val = b.val) (h1 : (i 1).val = (y 1).val) (h2 : (i 2).val = j.val * 768 + (y 2).val) :
    k0_pay4 (F := Ideal) (qtile Y b j) (k0_pay2 (slab X b)) (k0_pay3 (slab X b)) y = Garr X Y i := by
  obtain ⟨u, mm, qq, rfl⟩ : ∃ (u : Fin 1) (mm : Fin 2304) (qq : Fin 768), y = ix3 u mm qq := ⟨y 0, y 1, y 2, eq_ix3 y⟩
  rw [Tile.tile_apply]
  have e0 : i 0 = b := Fin.ext h0
  have e1 : i 1 = mm := Fin.ext h1
  have e2 : i 2 = (⟨j.val * 768 + qq.val, by have := j.isLt; have := qq.isLt; omega⟩ : Fin 2304) := Fin.ext h2
  show _ = G (cur X) (cur Y) (i 0) (i 1) (i 2)
  rw [e0, e1, e2]
  rfl

/-! ## The windows' blocks -/

/-- The printed index maps over the grid: batch t / 3 on the first axis of every window, query tile t % 3 on the last
    axis of the query and output windows, block 0 elsewhere. -/
theorem idx_facts : ∀ t : Fin cfg0.N,
    win0_0.index t (0 : Fin 3) = t.val / 3 ∧ win0_0.index t (1 : Fin 3) = 0 ∧ win0_0.index t (2 : Fin 3) = 0
    ∧ win0_1.index t (0 : Fin 3) = t.val / 3 ∧ win0_1.index t (1 : Fin 3) = 0 ∧ win0_1.index t (2 : Fin 3) = t.val % 3
    ∧ win0_2.index t (0 : Fin 3) = t.val / 3 ∧ win0_2.index t (1 : Fin 3) = 0 ∧ win0_2.index t (2 : Fin 3) = t.val % 3 :=
  (by decide +kernel : ∀ t : Fin grid0.N, _)

/-- The memory-key window's block at point `t` is batch t / 3's slab of the array the region finds. -/
theorem iblk0_eq (c : Dev nD) (t : Fin cfg0.N) (b : Fin 16) (hb : b.val = t.val / 3) :
    (iblk m c 0 t : Vec Ideal S1x64x2304 .f32) = slab (V m c main_v0) b := by
  obtain ⟨e0, e1, e2, -⟩ := idx_facts t
  funext y
  unfold iblk slab
  rw [View.read_apply]
  show V m c main_v0 _ = V m c main_v0 _
  congr 1
  funext a
  apply Fin.ext
  match a with
  | ⟨0, _⟩ => show win0_0.index t (0 : Fin 3) * 1 + 1 * (y 0).val = b.val; have h : (y 0).val < 1 := (y 0).isLt; omega
  | ⟨1, _⟩ => show win0_0.index t (1 : Fin 3) * 64 + 1 * (y 1).val = (y 1).val; omega
  | ⟨2, _⟩ => show win0_0.index t (2 : Fin 3) * 2304 + 1 * (y 2).val = (y 2).val; omega

/-- The query window's block at point `t` is tile t % 3 of batch t / 3. -/
theorem iblk1_eq (c : Dev nD) (t : Fin cfg0.N) (b : Fin 16) (j : Fin 3) (hb : b.val = t.val / 3) (hj : j.val = t.val % 3) :
    (iblk m c 1 t : Vec Ideal S1x64x768 .f32) = qtile (V m c main_v1) b j := by
  obtain ⟨-, -, -, e0, e1, e2, -⟩ := idx_facts t
  funext y
  unfold iblk qtile
  rw [View.read_apply]
  show V m c main_v1 _ = V m c main_v1 _
  congr 1
  funext a
  apply Fin.ext
  match a with
  | ⟨0, _⟩ => show win0_1.index t (0 : Fin 3) * 1 + 1 * (y 0).val = b.val; have h : (y 0).val < 1 := (y 0).isLt; omega
  | ⟨1, _⟩ => show win0_1.index t (1 : Fin 3) * 64 + 1 * (y 1).val = (y 1).val; omega
  | ⟨2, _⟩ => show win0_1.index t (2 : Fin 3) * 768 + 1 * (y 2).val = j.val * 768 + (y 2).val; rw [e2, hj]; omega

/-! ## What every point leaves -/

/-- A point that opens a batch: the output tile and the two carried buffers, as values of its two blocks. -/
theorem outsAt_open (c : Dev nD) (t : Fin cfg0.N) (h0 : t.val % 3 = 0) :
    outsAt0 m c t.val t.isLt
      = (k0_pay4 (iblk m c 1 t) (k0_pay2 (iblk m c 0 t)) (k0_pay3 (iblk m c 0 t)), k0_pay2 (iblk m c 0 t), k0_pay3 (iblk m c 0 t)) :=
  (outsAt0_A m c t h0).trans (congrArg₂ Prod.mk
    (Pieces.out_A (F := Ideal) c (grid0.coords t) (ms0_0 t) (hs0_0 t) (ms0_1 t) (hs0_1 t) (ms0_2 t) (hs0_2 t) scM0_0 (Memref.isWhole_whole _) scM0_1 (Memref.isWhole_whole _) ((hcond0_0 t).mpr h0) (iblk m c 0 t) (iblk m c 1 t))
    (congrArg₂ Prod.mk
      (Pieces.sout_A_0 (F := Ideal) c (grid0.coords t) (ms0_0 t) (hs0_0 t) (ms0_1 t) (hs0_1 t) (ms0_2 t) (hs0_2 t) scM0_0 (Memref.isWhole_whole _) scM0_1 (Memref.isWhole_whole _) ((hcond0_0 t).mpr h0) (iblk m c 0 t) (iblk m c 1 t))
      (Pieces.sout_A_1 (F := Ideal) c (grid0.coords t) (ms0_0 t) (hs0_0 t) (ms0_1 t) (hs0_1 t) (ms0_2 t) (hs0_2 t) scM0_0 (Memref.isWhole_whole _) scM0_1 (Memref.isWhole_whole _) ((hcond0_0 t).mpr h0) (iblk m c 0 t) (iblk m c 1 t))))

/-- A point inside a batch: the output tile over the carried buffers as the point before left them, which it keeps. -/
theorem outsAt_inside (c : Dev nD) (t : Fin cfg0.N) (h0 : ¬t.val % 3 = 0) :
    outsAt0 m c t.val t.isLt
      = (k0_pay4 (iblk m c 1 t) (outsAt0 m c (t.val - 1) (Nat.lt_of_le_of_lt (Nat.sub_le _ _) t.isLt)).2.1
            (outsAt0 m c (t.val - 1) (Nat.lt_of_le_of_lt (Nat.sub_le _ _) t.isLt)).2.2,
          (outsAt0 m c (t.val - 1) (Nat.lt_of_le_of_lt (Nat.sub_le _ _) t.isLt)).2.1,
          (outsAt0 m c (t.val - 1) (Nat.lt_of_le_of_lt (Nat.sub_le _ _) t.isLt)).2.2) :=
  (outsAt0_B m c t h0).trans (congrArg₂ Prod.mk
    (Pieces.out_B (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (iblk m c 0 t) (iblk m c 1 t)
      (outsAt0 m c (t.val - 1) (Nat.lt_of_le_of_lt (Nat.sub_le _ _) t.isLt)).2.1
      (outsAt0 m c (t.val - 1) (Nat.lt_of_le_of_lt (Nat.sub_le _ _) t.isLt)).2.2)
    rfl)

/-- The batch and the query tile of position `n`. -/
def bOf (n : ℕ) : Fin 16 := ⟨n / 3 % 16, Nat.mod_lt _ (by decide)⟩
def jOf (n : ℕ) : Fin 3 := ⟨n % 3, Nat.mod_lt _ (by decide)⟩

/-- What the output's staging buffer and the two carried buffers hold after position `n`, as functions of the two key
    arrays: the tile of batch n / 3 at query tile n % 3, and that batch's narrowed slab and scaled squared norms. -/
def held (X Y : S16x64x2304.Idx → EReal) (n : ℕ) :
    Vec Ideal S1x2304x768 .f32 × Vec Ideal S64x2304 .bf16 × Vec Ideal S2304x1 .f32 :=
  (k0_pay4 (F := Ideal) (qtile Y (bOf n) (jOf n)) (k0_pay2 (slab X (bOf n))) (k0_pay3 (slab X (bOf n))),
    k0_pay2 (F := Ideal) (slab X (bOf n)), k0_pay3 (F := Ideal) (slab X (bOf n)))

/-- By induction on the position: a point that opens a batch stores them; a point inside a batch finds them as the
    point before, in the same batch, left them. -/
theorem outs_eq (c : Dev nD) : ∀ (n : ℕ) (hn : n < cfg0.N), outsAt0 m c n hn = held (V m c main_v0) (V m c main_v1) n := by
  intro n
  induction n with
  | zero =>
    intro hn
    have hb0 : (bOf 0).val = 0 / 3 := by decide
    rw [outsAt_open m c ⟨0, hn⟩ rfl, iblk0_eq m c ⟨0, hn⟩ (bOf 0) hb0, iblk1_eq m c ⟨0, hn⟩ (bOf 0) (jOf 0) hb0 rfl]
    rfl
  | succ k ih =>
    intro hn
    have hN : k + 1 < 48 := lt_of_lt_of_eq hn (show cfg0.N = 48 from N_0)
    have hbv : (bOf (k + 1)).val = (k + 1) / 3 := by show (k + 1) / 3 % 16 = (k + 1) / 3; omega
    have hjv : (jOf (k + 1)).val = (k + 1) % 3 := rfl
    by_cases h0 : (k + 1) % 3 = 0
    · rw [outsAt_open m c ⟨k + 1, hn⟩ h0, iblk0_eq m c ⟨k + 1, hn⟩ (bOf (k + 1)) hbv,
        iblk1_eq m c ⟨k + 1, hn⟩ (bOf (k + 1)) (jOf (k + 1)) hbv hjv]
      rfl
    · rw [outsAt_inside m c ⟨k + 1, hn⟩ h0, iblk1_eq m c ⟨k + 1, hn⟩ (bOf (k + 1)) (jOf (k + 1)) hbv hjv]
      show (k0_pay4 _ (outsAt0 m c k _).2.1 (outsAt0 m c k _).2.2, (outsAt0 m c k _).2.1, (outsAt0 m c k _).2.2) = _
      rw [ih (Nat.lt_of_succ_lt hn)]
      have hb : bOf k = bOf (k + 1) := Fin.ext (by show k / 3 % 16 = (k + 1) / 3 % 16; omega)
      unfold held
      rw [hb]

/-! ## The write-backs, the cover, the array -/

/-- What point `t` writes back is block `t` of the one function of the two key arrays the region finds. -/
theorem flushed_eq (c : Dev nD) (t : Fin cfg0.N) :
    (dats m 0 c).flushed 2 t
      = ((cfg0.win 2).blk t).view.read (Elt Ideal) (Garr (V m c main_v0) (V m c main_v1)) := by
  obtain ⟨-, -, -, -, -, -, e0, e1, e2⟩ := idx_facts t
  have hN : t.val < 48 := lt_of_lt_of_eq t.isLt (show cfg0.N = 48 from N_0)
  rw [flushed2, outs_eq m c t.val t.isLt]
  funext y
  show k0_pay4 (F := Ideal) (qtile (V m c main_v1) (bOf t.val) (jOf t.val)) (k0_pay2 (slab (V m c main_v0) (bOf t.val)))
      (k0_pay3 (slab (V m c main_v0) (bOf t.val))) y
    = Garr (V m c main_v0) (V m c main_v1) (((cfg0.win 2).blk t).view.emb y)
  refine tile_at (V m c main_v0) (V m c main_v1) (bOf t.val) (jOf t.val) y (((cfg0.win 2).blk t).view.emb y) ?_ ?_ ?_
  · show win0_2.index t (0 : Fin 3) * 1 + 1 * (y 0).val = t.val / 3 % 16
    have h : (y 0).val < 1 := (y 0).isLt
    omega
  · show win0_2.index t (1 : Fin 3) * 2304 + 1 * (y 1).val = (y 1).val
    omega
  · show win0_2.index t (2 : Fin 3) * 768 + 1 * (y 2).val = t.val % 3 * 768 + (y 2).val
    rw [e2]; omega

/-- An index of the result is in point `t`'s block iff each coordinate is in the block's range on its axis. -/
theorem mem_blk (t : Fin cfg0.N) (i : S16x2304x2304.Idx) :
    i ∈ ((cfg0.win 2).blk t).view.set ↔ ∀ a : Fin 3, win0_2.index t a * S1x2304x768.size a ≤ (i a).val
      ∧ (i a).val < win0_2.index t a * S1x2304x768.size a + S1x2304x768.size a := by
  show i ∈ ((View.whole main_v2).slice (win0_2.rect t)).set ↔ _
  rw [View.set_slice_whole, Rect.mem_set_unit]
  exact Iff.rfl

/-- The result array after the run: every index (b, m, q) lies in the block of point 3 b + q / 768, so the array is
    the one function everywhere. -/
theorem final (c : Dev nD) : (dats m 0 c).arrAt 2 cfg0.N = Garr (V m c main_v0) (V m c main_v1) :=
  (dats m 0 c).arrAt_eq_of_cover 2 (Garr (V m c main_v0) (V m c main_v1)) (fun t _ => flushed_eq m c t) fun i => by
    have hi0 : (i 0).val < 16 := (i 0).isLt
    have hi1 : (i 1).val < 2304 := (i 1).isLt
    have hi2 : (i 2).val < 2304 := (i 2).isLt
    have hlt : (i 0).val * 3 + (i 2).val / 768 < cfg0.N := by rw [show cfg0.N = 48 from N_0]; omega
    obtain ⟨t, ht⟩ : ∃ t : Fin cfg0.N, t.val = (i 0).val * 3 + (i 2).val / 768 := ⟨⟨_, hlt⟩, rfl⟩
    obtain ⟨-, -, -, -, -, -, e0, e1, e2⟩ := idx_facts t
    refine ⟨t, flush0_2 t, ?_⟩
    rw [mem_blk]
    intro a
    match a with
    | ⟨0, _⟩ =>
      show win0_2.index t (0 : Fin 3) * 1 ≤ (i 0).val ∧ (i 0).val < win0_2.index t (0 : Fin 3) * 1 + 1
      omega
    | ⟨1, _⟩ =>
      show win0_2.index t (1 : Fin 3) * 2304 ≤ (i 1).val ∧ (i 1).val < win0_2.index t (1 : Fin 3) * 2304 + 2304
      omega
    | ⟨2, _⟩ =>
      show win0_2.index t (2 : Fin 3) * 768 ≤ (i 2).val ∧ (i 2).val < win0_2.index t (2 : Fin 3) * 768 + 768
      omega

/-! ## The arrays the region finds are the arguments, reshaped -/

theorem V_keys0 (c : Dev nD) : (V m c main_v0 : S16x64x2304.Idx → EReal)
    = shapeCast S16x64x2304 (m ((c : Thread nD τ).loc main_arg0)) shapeCasts_S16x64x36x64_S16x64x2304 := by
  dsimp only [Gen.V, Gen.hostOps0]; after_results; rfl

theorem V_keys1 (c : Dev nD) : (V m c main_v1 : S16x64x2304.Idx → EReal)
    = shapeCast S16x64x2304 (m ((c : Thread nD τ).loc main_arg1)) shapeCasts_S16x64x36x64_S16x64x2304 := by
  dsimp only [Gen.V, Gen.hostOps0]; after_results; rfl

/-! ## The run, read -/

/-- Every weakly fair execution of the idealized kernel ends with its result array at the one function of the two
    arguments reshaped to (batch, channel, position), the arguments unchanged. -/
theorem run : θ_run defs (onTc (τ := τ) (main (F := Ideal))) ⟨m, fun _ => 0, ρ⟩ fun r => ∀ c : Dev nD,
      r.2.mem ((c : Thread nD τ).loc main_v2)
        = Garr (shapeCast S16x64x2304 (m ((c : Thread nD τ).loc main_arg0)) shapeCasts_S16x64x36x64_S16x64x2304)
            (shapeCast S16x64x2304 (m ((c : Thread nD τ).loc main_arg1)) shapeCasts_S16x64x36x64_S16x64x2304)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((final m c).trans (by rw [V_keys0, V_keys1])), (h c).2⟩)
    (run_blocks m ρ)

end Cert.KernelIdeal.Whole

end
-- ==== Proof.RefValue.lean ====
/-
  The reference's result, index by index, is the reference form of the law's function of the two reshaped key arrays.

  Read one operation at a time, the reference forms at (batch b, memory position m, query position q) the three sums
  over the 64 channels (the memory key's squared norm, twice the inner product, the query key's squared norm), their
  combination over 8, the maximum of that over m (taken from minus infinity, and joined with minus infinity once
  more), the exponential of the difference, its sum over m from zero, and the quotient.
-/
import proofs.«132363_j35433480192809_2_alg».proof.Proof.Gen.ReferenceIdeal.Read
import proofs.«132363_j35433480192809_2_alg».proof.Proof.SoftmaxLaw
import proofs.«132363_j35433480192809_2_alg».proof.Proof.Consts
import proofs.«132363_j35433480192809_2_alg».proof.Proof.LibColumnReads
import Idealize.ShloMosaic.Lib.ValueIdx

noncomputable section

open Idealize.ShloMosaic Idealize.ShloMosaic.ValueIdx

namespace Cert.ReferenceIdeal.RefValue

open Cert.ReferenceIdeal Cert.ReferenceIdeal.Gen Cert.ReferenceIdeal.Read Cert.SoftmaxLaw Cert.LibColumnReads

variable (x0 x1 : (⟨S16x64x36x64, .f32⟩ : BufTy).Contents (Elt Ideal))

/-! ## Where each operation reads its operand -/

/-- The memory key's squared norm at (b, m), broadcast along q, sums the channels of position m of batch b. -/
theorem at_mem_norm (b : Fin 16) (m q : Fin 2304) (k : Fin 64) :
    idx_main_v3 (idx_main_v4 (idx_main_v12 (ix3 b m q))) k = ix3 b k m :=
  funext fun a => Fin.ext (by match a with | ⟨0, _⟩ => rfl | ⟨1, _⟩ => rfl | ⟨2, _⟩ => rfl)

/-- The query key's squared norm at (b, q), broadcast along m, sums the channels of position q of batch b. -/
theorem at_query_norm (b : Fin 16) (m q : Fin 2304) (k : Fin 64) :
    idx_main_v9 (idx_main_v10 (idx_main_v14 (ix3 b m q))) k = ix3 b k q :=
  funext fun a => Fin.ext (by match a with | ⟨0, _⟩ => rfl | ⟨1, _⟩ => rfl | ⟨2, _⟩ => rfl)

/-- The inner product at (b, m, q) pairs channel k of position m with channel k of position q. -/
theorem at_inner_l (b : Fin 16) (m q : Fin 2304) (k : Fin 64) : lidx_main_v5 (ix3 b m q) k = ix3 b k m :=
  funext fun a => Fin.ext (by match a with | ⟨0, _⟩ => rfl | ⟨1, _⟩ => rfl | ⟨2, _⟩ => rfl)
theorem at_inner_r (b : Fin 16) (m q : Fin 2304) (k : Fin 64) : ridx_main_v5 (ix3 b m q) k = ix3 b k q :=
  funext fun a => Fin.ext (by match a with | ⟨0, _⟩ => rfl | ⟨1, _⟩ => rfl | ⟨2, _⟩ => rfl)

/-- The column maximum and the column sum, broadcast back along m, are read at (b, q). -/
theorem at_col_max (b : Fin 16) (m q : Fin 2304) : idx_main_v21 (idx_main_v22 (ix3 b m q)) = ix2 b q :=
  funext fun a => Fin.ext (by match a with | ⟨0, _⟩ => rfl | ⟨1, _⟩ => rfl)
theorem at_col_sum (b : Fin 16) (m q : Fin 2304) : idx_main_v26 (idx_main_v27 (ix3 b m q)) = ix2 b q :=
  funext fun a => Fin.ext (by match a with | ⟨0, _⟩ => rfl | ⟨1, _⟩ => rfl)
/-- The column sum at (b, q) runs over the memory positions of that column. -/
theorem at_sum_term (b : Fin 16) (q : Fin 2304) (k : Fin 2304) : idx_main_v25 (ix2 b q) k = ix3 b k q :=
  funext fun a => Fin.ext (by match a with | ⟨0, _⟩ => rfl | ⟨1, _⟩ => rfl | ⟨2, _⟩ => rfl)

/-! ## The affinity -/

/-- The reference's affinity at (b, m, q) is its form of the law's entry over the two reshaped key arrays. -/
theorem affinity_eq (b : Fin 16) (m q : Fin 2304) :
    val_main_v17 (F := Ideal) x0 x1 (ix3 b m q)
      = affRef (fun c => cur (val_main_v0 (F := Ideal) x0) b c m) (fun c => cur (val_main_v1 (F := Ideal) x1) b c q) := by
  rw [val_main_v17_apply, val_main_v16_apply, val_main_cst_2_apply, val_main_v15_apply, val_main_v14_apply,
    val_main_v10_apply, val_main_v9_apply, val_main_cst_1_apply, val_main_v13_apply, val_main_v12_apply,
    val_main_v11_apply, val_main_v4_apply, val_main_v3_apply, val_main_cst_apply, val_main_v7_apply, val_main_v6_apply,
    val_main_cst_0_apply, val_main_v5_apply]
  simp only [val_main_v8_apply, val_main_v2_apply, at_mem_norm, at_query_norm, at_inner_l, at_inner_r,
    Ideal.hostDivf_def, Ideal.subf_def, Ideal.addf_def, Ideal.mulf_def, Ideal.hostNegf_def, Ideal.negf_def,
    Ideal.ofBits_def, Consts.ofBits_eight, Consts.ofBits_two, Ideal.ofBits_zero_f32]
  rfl

/-! ## The column maximum -/

theorem col_max_eq (b : Fin 16) (q : Fin 2304) :
    val_main_v20 (F := Ideal) x0 x1 (ix2 b q)
      = max ⊥ (colMax fun m' => val_main_v17 (F := Ideal) x0 x1 (ix3 b m' q)) := by
  rw [val_main_v20_apply, val_main_v19_apply, val_main_cst_4_apply]
  unfold val_main_v18
  refine congrArg₂ (fun a b : EReal => max a b) Consts.ofBits_neg_inf ?_
  refine (hostMidMax_apply (val_main_v17 (F := Ideal) x0 x1) (val_main_cst_3 (F := Ideal))
    reducesTo_S16x2304x2304_S16x2304_d1 (by decide) h_S_ b q).trans ?_
  unfold colMax
  rw [val_main_cst_3_apply]
  exact congrArg (fun z : EReal => Finset.fold max z (fun k => val_main_v17 (F := Ideal) x0 x1 (ix3 b k q)) Finset.univ)
    Consts.ofBits_neg_inf

/-! ## The result -/

/-- The reference's result array is the reference form of the law's function of the two reshaped key arrays. -/
theorem result_eq :
    val_main_v28 (F := Ideal) x0 x1 = GrefArr (val_main_v0 (F := Ideal) x0) (val_main_v1 (F := Ideal) x1) := by
  funext i
  obtain ⟨b, m, q, rfl⟩ : ∃ (b : Fin 16) (m q : Fin 2304), i = ix3 b m q := ⟨i 0, i 1, i 2, eq_ix3 i⟩
  have hexp : ∀ k : Fin 2304, val_main_v24 (F := Ideal) x0 x1 (ix3 b k q)
      = Ideal.exp (affRef (fun c => cur (val_main_v0 (F := Ideal) x0) b c k) (fun c => cur (val_main_v1 (F := Ideal) x1) b c q)
        - max ⊥ (colMax fun m' => affRef (fun c => cur (val_main_v0 (F := Ideal) x0) b c m')
            (fun c => cur (val_main_v1 (F := Ideal) x1) b c q))) := fun k => by
    rw [val_main_v24_apply, val_main_v23_apply, val_main_v22_apply, val_main_v21_apply, at_col_max, col_max_eq, affinity_eq]
    simp only [affinity_eq, Ideal.hostUnary_exp_def, Ideal.subf_def]
  rw [val_main_v28_apply, val_main_v27_apply, val_main_v26_apply, at_col_sum, val_main_v25_apply, val_main_cst_5_apply, hexp m]
  simp only [at_sum_term, hexp, Ideal.hostDivf_def, Ideal.ofBits_def, Ideal.ofBits_zero_f32]
  rfl

end Cert.ReferenceIdeal.RefValue

end
-- ==== Proof.Finite.lean ====
/-
  The precondition read back: where the printed predicate "every entry of both inputs has absolute value below
  plus infinity" is all ones, every entry of both inputs is a real number. (An extended real whose absolute value
  max x (-x) is below the top is neither infinity.)
-/
import proofs.«132363_j35433480192809_2_alg».proof.Pre_finite_inputs
import Idealize.ShloMosaic.PureOps.Ideal
import Idealize.ShloMosaic.PureOps.Ideal.Laws
import Idealize.ShloMosaic.Lib.ReduceAll
import Idealize.ShloMosaic.Lib.Affine
import Idealize.ShloMosaic.Lib.ValueIdx

noncomputable section

open Idealize.ShloMosaic

namespace Cert.Finite

open Cert.Pre_finite_inputs

instance : Subsingleton S_.Idx := ⟨fun a b => funext fun d => d.elim0⟩

/-- An extended real whose absolute value compares below plus infinity is a real. -/
theorem real_of_abs_lt (x : EReal)
    (h : Ideal.cmp .olt (max x (-x)) (Ideal.ofBits .f32 0x7F800000#32) = 1#1) : ∃ r : ℝ, x = (r : EReal) := by
  have ht : Ideal.ofBits .f32 0x7F800000#32 = (⊤ : EReal) := by simp [Ideal.ofBits, Ideal.ieee]
  rw [ht] at h
  induction x using EReal.rec with
  | bot => simp [Ideal.cmp] at h
  | top => simp [Ideal.cmp] at h
  | coe r => exact ⟨r, rfl⟩

variable [Facts]

/-- Where the precondition's predicate is all ones, both inputs hold reals everywhere. -/
theorem reals_of_pre (a0 a1 : FVec Ideal S16x64x36x64 .f32) (h : fn (F := Ideal) a0 a1 = fun _ => 1#1) :
    (∀ i, ∃ r : ℝ, a0 i = (r : EReal)) ∧ (∀ i, ∃ r : ℝ, a1 i = (r : EReal)) := by
  have h0 := congrFun h ValueIdx.ix0
  dsimp only [fn] at h0
  obtain ⟨h3, h7⟩ := IntOp.andi_eq_one.mp h0
  refine ⟨fun i => real_of_abs_lt (a0 i) ?_, fun i => real_of_abs_lt (a1 i) ?_⟩
  · exact Host.reduce_andi_all _ _ _ _ _ h3 i
  · exact Host.reduce_andi_all _ _ _ _ _ h7 i

end Cert.Finite

end
-- ==== Proof.lean ====
/-
  A column softmax of scaled negative squared distances between memory keys and query keys.

  For key arrays of 16 batches, 64 channels and 36 x 64 = 2304 positions, both programs return, per batch, the
  2304 x 2304 matrix whose column q is the softmax over memory positions m of an affinity between memory key m and
  query key q. The reference's affinity is ((-|k_m|^2 + 2 k_m.q_q) - |q_q|^2) / 8. The kernel computes
  k_m.(q_q / 4) - |k_m|^2 / 8: it folds the division by 8 = sqrt 64 into its factors (1/8 and 1/4 are exact binary
  fractions) and omits |q_q|^2 / 8, which is constant down a column and so cancels in a softmax. It keeps a batch's
  narrowed memory keys and their scaled squared norms from the batch's first query tile to its other two.

  Read at the extended reals every change of float format is the identity and every sum is exact, so the two
  results are equal wherever the cancellation is: subtracting a REAL |q_q|^2 / 8 from a whole column moves the
  column's maximum by as much and leaves the exponents unchanged. The precondition (every input entry finite) is
  what makes every entry a real; at an infinite entry the two programs need not agree.

  The modules: SoftmaxLaw (the law, over the extended reals), Consts (the five float constants), LibColumnReads
  (column layout operations and reductions read at an index), Pieces (what one run of the kernel body leaves),
  KernelTile (one output tile at an index), KernelWhole (the 48 tiles are the tiles of one function, and cover the
  result), RefValue (the reference at an index), Finite (the precondition read back), and the five claims below.
-/
import proofs.«132363_j35433480192809_2_alg».proof.Defs
import proofs.«132363_j35433480192809_2_alg».proof.Proof.Gen.Kernel
import proofs.«132363_j35433480192809_2_alg».proof.Proof.Gen.Kernel.Frame
import proofs.«132363_j35433480192809_2_alg».proof.Proof.Gen.KernelIdeal
import proofs.«132363_j35433480192809_2_alg».proof.Proof.Gen.KernelIdeal.Frame
import proofs.«132363_j35433480192809_2_alg».proof.Proof.Gen.KernelIdeal.Value
import proofs.«132363_j35433480192809_2_alg».proof.Proof.Gen.ReferenceIdeal
import proofs.«132363_j35433480192809_2_alg».proof.Proof.Gen.ReferenceIdeal.Run
import proofs.«132363_j35433480192809_2_alg».proof.Proof.Gen.ReferenceIdeal.Read
import proofs.«132363_j35433480192809_2_alg».proof.Proof.Gen.Pre_finite_inputs
import proofs.«132363_j35433480192809_2_alg».proof.Proof.SoftmaxLaw
import proofs.«132363_j35433480192809_2_alg».proof.Proof.KernelWhole
import proofs.«132363_j35433480192809_2_alg».proof.Proof.RefValue
import proofs.«132363_j35433480192809_2_alg».proof.Proof.Finite
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_k : Cert.frame_Kernel := fun m ρ _ => Cert.Kernel.Gen.frame m ρ

/-- So does its reading at the extended reals. -/
theorem frame_ki : Cert.frame_KernelIdeal := fun m ρ _ => Cert.KernelIdeal.Gen.frame m ρ

/-- The reference is a straight line of host operations: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Nothing of the kernel was rewritten to read it at the extended reals. -/
theorem preserves : Cert.preserves_Kernel_KernelIdeal := trivial

/-- Both runs end; the kernel's result array is the law's function of the two reshaped arguments in the kernel's
    form, the reference's the same function in the reference's form; the arguments agree and hold reals, so the two
    forms are equal. -/
theorem algebraic : Cert.algebraic_KernelIdeal_ReferenceIdeal := by
  intro m ρ m' ρ' hpre hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, Cert.ReferenceIdeal.RefValue.result_eq, (hagree c).1, (hagree c).2]
  obtain ⟨hX, hY⟩ := Cert.Finite.reals_of_pre _ _ (hpre c)
  exact Cert.SoftmaxLaw.GrefArr_eq_Garr _ _ (fun i => hX _) (fun i => hY _)

theorem claim : Cert.Claim := ⟨Cert.Kernel.Gen.facts, Cert.KernelIdeal.Gen.facts, Cert.ReferenceIdeal.Gen.facts,
  Cert.Pre_finite_inputs.Gen.facts, frame_k, frame_ki, frame_ri, preserves, algebraic⟩

end Cert.Proof

end
